-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  main_v8
-- ==== Kernel.lean ====
abbrev S32x1x512x512 : Shape := ⟨4, ![32, 1, 512, 512]⟩
abbrev S1x1 : Shape := ⟨2, ![1, 1]⟩
abbrev S1x1x512x512 : Shape := ⟨4, ![1, 1, 512, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  iota_S512x512_d0_w32 : S512x512.Iotas .tc 32 [0]
  iota_S512x512_d1_w32 : S512x512.Iotas .tc 32 [1]
  rotates_S512x512_d0 : S512x512.Rotates 0 none
  rotates_S512x512_d1 : S512x512.Rotates 1 none
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S32x1x512x512.size a
  hwx0_0 : ∀ i : grid0.Coords, EltTy.bits .f32 = 32 ∨ (Rect.block (s := S32x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S32x1x512x512.size a
  hwx0_1 : ∀ i : grid0.Coords, EltTy.bits .f32 = 32 ∨ (Rect.block (s := S32x1x512x512) S1x1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x512x512 : Shape := ⟨4, ![32, 1, 512, 512]⟩
abbrev S_ : Shape := ⟨0, ![]⟩
abbrev S32x1x514x514 : Shape := ⟨4, ![32, 1, 514, 514]⟩

abbrev nBuf : Space → Nat
  | .hbm => 36
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S_, .i32⟩
  | .hbm, ⟨3, _⟩ => ⟨S_, .f32⟩
  | .hbm, ⟨4, _⟩ => ⟨S32x1x514x514, .f32⟩
  | .hbm, ⟨5, _⟩ => ⟨S32x1x512x512, .f32⟩
  | .hbm, ⟨6, _⟩ => ⟨S32x1x512x512, .f32⟩
  | .hbm, ⟨7, _⟩ => ⟨S32x1x512x512, .f32⟩
  | .hbm, ⟨8, _⟩ => ⟨S32x1x512x512, .f32⟩
  | .hbm, ⟨9, _⟩ => ⟨S32x1x512x512, .f32⟩
  | .hbm, ⟨10, _⟩ => ⟨S32x1x512x512, .f32⟩
  | .hbm, ⟨11, _⟩ => ⟨S32x1x512x512, .f32⟩
  | .hbm, ⟨12, _⟩ => ⟨S32x1x512x512, .f32⟩
  | .hbm, ⟨13, _⟩ => ⟨S32x1x512x512, .f32⟩
  | .hbm, ⟨14, _⟩ => ⟨S32x1x512x512, .f32⟩
  | .hbm, ⟨15, _⟩ => ⟨S_, .f32⟩
  | .hbm, ⟨16, _⟩ => ⟨S32x1x512x512, .f32⟩
  | .hbm, ⟨17, _⟩ => ⟨S32x1x512x512, .f32⟩
  | .hbm, ⟨18, _⟩ => ⟨S32x1x512x512, .f32⟩
  | .hbm, ⟨19, _⟩ => ⟨S32x1x512x512, .f32⟩
  | .hbm, ⟨20, _⟩ => ⟨S32x1x512x512, .f32⟩
  | .hbm, ⟨21, _⟩ => ⟨S32x1x512x512, .f32⟩
  | .hbm, ⟨22, _⟩ => ⟨S32x1x512x512, .f32⟩
  | .hbm, ⟨23, _⟩ => ⟨S32x1x512x512, .f32⟩
  | .hbm, ⟨24, _⟩ => ⟨S32x1x512x512, .f32⟩
  | .hbm, ⟨25, _⟩ => ⟨S_, .f32⟩
  | .hbm, ⟨26, _⟩ => ⟨S32x1x512x512, .f32⟩
  | .hbm, ⟨27, _⟩ => ⟨S32x1x512x512, .f32⟩
  | .hbm, ⟨28, _⟩ => ⟨S_, .f32⟩
  | .hbm, ⟨29, _⟩ => ⟨S32x1x512x512, .f32⟩
  | .hbm, ⟨30, _⟩ => ⟨S32x1x512x512, .f32⟩
  | .hbm, ⟨31, _⟩ => ⟨S32x1x512x512, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  pads_S32x1x512x512_S32x1x514x514_000_000_110_110 : S32x1x512x512.Pads (![0, 0, 1, 1] : Fin 4 → Nat) ![0, 0, 1, 1] ![0, 0, 0, 0] S32x1x514x514
  h_S_ : 0 < S_.numel
  slices_S32x1x514x514_S32x1x512x512_0_0_1_1 : S32x1x514x514.Slices ![0, 0, 1, 1] S32x1x512x512
  slices_S32x1x514x514_S32x1x512x512_0_0_0_1 : S32x1x514x514.Slices ![0, 0, 0, 1] S32x1x512x512
  slices_S32x1x514x514_S32x1x512x512_0_0_2_1 : S32x1x514x514.Slices ![0, 0, 2, 1] S32x1x512x512
  slices_S32x1x514x514_S32x1x512x512_0_0_1_0 : S32x1x514x514.Slices ![0, 0, 1, 0] S32x1x512x512
  slices_S32x1x514x514_S32x1x512x512_0_0_1_2 : S32x1x514x514.Slices ![0, 0, 1, 2] S32x1x512x512
  bcast_S_S32x1x512x512 : S_.BroadcastsInDim S32x1x512x512 (![] : Fin 0 → Fin S32x1x512x512.rank)
  reducesTo_S32x1x512x512_S_d0_1_2_3 : S32x1x512x512.ReducesTo [0, 1, 2, 3] S_

variable [Facts₀]

class Facts : Prop extends Facts₀ where

variable [Facts]
-- ==== Proof.Loss.lean ====
/-
  The boundary-weighted binary cross-entropy, as mathematics on the extended reals.

  A batch holds 32 planes of 512 by 512 pixels. For a pixel with logit `x` and label `t` the loss is
  `max x 0 - x t + log (1 + exp (-|x|))`; its weight is `1 + 5 (t - e)`, where `e` is the erosion of the label plane at
  the pixel: the minimum of the label and of its four neighbours (above, below, left, right), a neighbour that falls
  outside the plane counting as `0`. The result is the sum of the weighted losses over every pixel of every plane,
  divided by the number of pixels.

  A neighbour is read through PADDED coordinates: the plane sits at rows and columns 1 … 512 of a 514 by 514 frame
  whose border is `0`, so the pixel `(r, c)` is the frame's `(r + 1, c + 1)` and its neighbours are the frame's
  `(r, c + 1)`, `(r + 2, c + 1)`, `(r + 1, c)` and `(r + 1, c + 2)`.

  The one law of the proof is here too: a sum over all indices of a batch is the sum over planes of the sum over rows
  of the sum over columns (the second axis has one coordinate). It holds in any commutative monoid, so on the
  extended reals it needs no finiteness.
-/
import Idealize.ShloMosaic.Lib.ValueIdx
import Idealize.ShloMosaic.PureOps.Ideal.Laws
import Mathlib.Algebra.BigOperators.Fin

noncomputable section

open scoped BigOperators

namespace Cert.BoundaryLoss

open Idealize.ShloMosaic Idealize.ShloMosaic.ValueIdx

/-- The shape of a batch: 32 planes, one channel, 512 rows, 512 columns. -/
abbrev Batch : Shape := ⟨4, ![32, 1, 512, 512]⟩

/-- The frame around a plane read at padded coordinates `(p, q)`: the plane's entry `(p - 1, q - 1)` inside rows and
    columns 1 … 512, and `0` on the border. -/
def framed (X : Fin 512 → Fin 512 → EReal) (p q : ℕ) : EReal :=
  if h : (1 ≤ p ∧ p ≤ 512) ∧ (1 ≤ q ∧ q ≤ 512) then X ⟨p - 1, by omega⟩ ⟨q - 1, by omega⟩ else 0

/-- Inside the frame's border the frame is the plane. -/
theorem framed_inside (X : Fin 512 → Fin 512 → EReal) (r c : Fin 512) : framed X (r.val + 1) (c.val + 1) = X r c := by
  unfold framed
  rw [dif_pos ⟨⟨by omega, by have := r.isLt; omega⟩, ⟨by omega, by have := c.isLt; omega⟩⟩]
  rfl

/-- One pixel's weighted loss from its logit `x`, its label `t` and the label's four neighbours. -/
def pixel (x t u d l r : EReal) : EReal :=
  (max x 0 - x * t + Ideal.log1p (Ideal.exp (-(max x (-x)))))
    * (Ideal.ofBits .f32 0x3F800000#32 + Ideal.ofBits .f32 0x40A00000#32 * (t - min t (min (min u d) (min l r))))

/-- The weighted loss of the pixel `(r, c)` of a plane of logits `X` with labels `T`. -/
def weighted (X T : Fin 512 → Fin 512 → EReal) (r c : Fin 512) : EReal :=
  pixel (X r c) (T r c) (framed T r.val (c.val + 1)) (framed T (r.val + 2) (c.val + 1))
    (framed T (r.val + 1) c.val) (framed T (r.val + 1) (c.val + 2))

/-- A plane's loss: its pixels' weighted losses, summed along each row and then over the rows. -/
def planeLoss (X T : Fin 512 → Fin 512 → EReal) : EReal := ∑ r : Fin 512, ∑ c : Fin 512, weighted X T r c

/-- Plane `b` of a batch, by row and column. -/
def planeOf (A : Batch.Idx → EReal) (b : Fin 32) : Fin 512 → Fin 512 → EReal := fun r c => A (ix4 b (0 : Fin 1) r c)

/-- The batch's loss: the planes' losses summed. -/
def batchLoss (P T : Batch.Idx → EReal) : EReal := ∑ b : Fin 32, planeLoss (planeOf P b) (planeOf T b)

/-- The mean over the batch's 32 · 512 · 512 = 2²³ pixels. -/
def meanLoss (P T : Batch.Idx → EReal) : EReal := Ideal.div (batchLoss P T) (Ideal.ofBits .f32 0x4B000000#32)

/-- The weighted loss at an index of the batch. -/
def weightedAt (P T : Batch.Idx → EReal) (i : Batch.Idx) : EReal :=
  weighted (planeOf P (i 0)) (planeOf T (i 0)) (i 2) (i 3)

/-- An index of a batch is its plane, its row and its column: the channel axis has one coordinate. -/
def batchEquiv : Batch.Idx ≃ Fin 32 × Fin 512 × Fin 512 where
  toFun i := (i 0, i 2, i 3)
  invFun p := ix4 p.1 (0 : Fin 1) p.2.1 p.2.2
  left_inv i := funext fun a => match a with
    | ⟨0, _⟩ => rfl
    | ⟨1, _⟩ => Subsingleton.elim (α := Fin 1) _ _
    | ⟨2, _⟩ => rfl
    | ⟨3, _⟩ => rfl
  right_inv _ := rfl

/-- So a sum over a batch's indices is the sum over planes, rows and columns, in any commutative monoid. -/
theorem sum_batch {M : Type*} [AddCommMonoid M] (f : Batch.Idx → M) :
    ∑ i, f i = ∑ b : Fin 32, ∑ r : Fin 512, ∑ c : Fin 512, f (ix4 b (0 : Fin 1) r c) := by
  rw [← Equiv.sum_comp batchEquiv.symm f, Fintype.sum_prod_type]
  refine Finset.sum_congr rfl fun b _ => ?_
  rw [Fintype.sum_prod_type]
  rfl

/-- The batch's loss is the sum of the weighted losses over every index of the batch. -/
theorem batchLoss_eq_sum (P T : Batch.Idx → EReal) : batchLoss P T = ∑ i : Batch.Idx, weightedAt P T i := by
  rw [sum_batch]
  rfl

/-- A running sum that starts at `0 + s 0` and adds `s (n + 1)` at step `n + 1` is the sum of the first `n + 1` terms. -/
def running (s : ℕ → EReal) : ℕ → EReal
  | 0 => 0 + s 0
  | n + 1 => running s n + s (n + 1)

theorem running_eq_sum (s : ℕ → EReal) (n : ℕ) : running s n = ∑ k ∈ Finset.range (n + 1), s k := by
  induction n with
  | zero => simp [running]
  | succ n ih => rw [running, ih, Finset.sum_range_succ _ (n + 1)]

end Cert.BoundaryLoss

end
-- ==== Proof.Reference.lean ====
/-
  The reference read at an index: its run ends at the mean, over all 32 · 512 · 512 pixels, of the weighted pixel loss.

  The reference pads the label array with a border of zeros to 514 by 514 planes and takes five shifted 512 by 512
  windows of it: the padded array read at `(b, 0, p, q)` is the frame around plane `b` at the padded coordinates
  `(p, q)`, so the five windows at a pixel are the pixel's label and its four neighbours. Every later stage is
  pointwise, the total is one sum over every index of the batch from the zero word, and the last stage divides by the
  pixel count.
-/
import proofs.«126187_j61203283968394_1_alg».proof.Defs
import proofs.«126187_j61203283968394_1_alg».proof.Proof.Gen.ReferenceIdeal.Run
import proofs.«126187_j61203283968394_1_alg».proof.Proof.Gen.ReferenceIdeal.Read
import proofs.«126187_j61203283968394_1_alg».proof.Proof.Loss
import Idealize.ShloMosaic.Lib.KernelVsHost

noncomputable section

open scoped BigOperators

namespace Cert.BoundaryLoss.OfReference

open Idealize.ShloMosaic Idealize.ShloMosaic.ValueIdx Cert.ReferenceIdeal Cert.ReferenceIdeal.Read Cert.BoundaryLoss

/-- The padding value: the integer zero converted, which is the extended real `0`. -/
theorem padValue (i : S_.Idx) : val_main_call0_v0 (F := Ideal) i = 0 := by
  show (((0#32 : BitVec 32).toInt : ℝ) : EReal) = 0
  simp

/-- The padded label array at an index whose plane is `b` and whose last two coordinates are `p` and `q` is the frame
    around plane `b` at `(p, q)`. -/
theorem padded_apply (x1 : Batch.Idx → EReal) (j : S32x1x514x514.Idx) (b : Fin 32) (p q : ℕ)
    (hb : (j 0).val = b.val) (hp : (j 2).val = p) (hq : (j 3).val = q) :
    val_main_v0 (F := Ideal) x1 j = framed (planeOf x1 b) p q := by
  have h1' : (j 1).val < 1 := (j 1).isLt
  have h1 : (j 1).val = 0 := by omega
  have hp2 : (j 2).val < 514 := (j 2).isLt
  have hq3 : (j 3).val < 514 := (j 3).isLt
  have hp' : p < 514 := by omega
  have hq' : q < 514 := by omega
  unfold val_main_v0 framed
  by_cases h : (1 ≤ p ∧ p ≤ 512) ∧ (1 ≤ q ∧ q ≤ 512)
  · rw [dif_pos h]
    refine (pad_apply_of_inside ![0, 0, 1, 1] ![0, 0, 1, 1] ![0, 0, 0, 0] x1 _ _ _ j
      (ix4 b (0 : Fin 1) (⟨p - 1, by omega⟩ : Fin 512) (⟨q - 1, by omega⟩ : Fin 512)) (fun a => ?_)).trans rfl
    match a with
    | ⟨0, _⟩ => show (j 0).val = 0 + b.val * (0 + 1); omega
    | ⟨1, _⟩ => show (j 1).val = 0 + 0 * (0 + 1); omega
    | ⟨2, _⟩ => show (j 2).val = 1 + (p - 1) * (0 + 1); omega
    | ⟨3, _⟩ => show (j 3).val = 1 + (q - 1) * (0 + 1); omega
  · rw [dif_neg h]
    by_cases h2 : 1 ≤ p ∧ p ≤ 512
    · have h3 : ¬(1 ≤ q ∧ q ≤ 512) := fun h3 => h ⟨h2, h3⟩
      refine (pad_apply_of_not_inside ![0, 0, 1, 1] ![0, 0, 1, 1] ![0, 0, 0, 0] x1 _ _ _ j (3 : Fin 4) ?_).trans (padValue _)
      show ¬(1 ≤ (j 3).val ∧ ((j 3).val - 1) % (0 + 1) = 0 ∧ ((j 3).val - 1) / (0 + 1) < 512)
      rw [hq]; omega
    · refine (pad_apply_of_not_inside ![0, 0, 1, 1] ![0, 0, 1, 1] ![0, 0, 0, 0] x1 _ _ _ j (2 : Fin 4) ?_).trans (padValue _)
      show ¬(1 ≤ (j 2).val ∧ ((j 2).val - 1) % (0 + 1) = 0 ∧ ((j 2).val - 1) / (0 + 1) < 512)
      rw [hp]; omega

/-- The last pointwise stage at an index of the batch is the weighted loss there. -/
theorem stage_apply (x0 x1 : Batch.Idx → EReal) (i : Batch.Idx) :
    val_main_v24 (F := Ideal) x0 x1 i = weightedAt x0 x1 i := by
  have e1 : val_main_v1 (F := Ideal) x1 i = planeOf x1 (i 0) (i 2) (i 3) := by
    rw [val_main_v1_apply, padded_apply x1 (idx_main_v1 i) (i 0) ((i 2).val + 1) ((i 3).val + 1) rfl (Nat.add_comm _ _) (Nat.add_comm _ _)]
    exact framed_inside _ _ _
  have e2 : val_main_v2 (F := Ideal) x1 i = framed (planeOf x1 (i 0)) (i 2).val ((i 3).val + 1) := by
    rw [val_main_v2_apply]; exact padded_apply x1 (idx_main_v2 i) (i 0) _ _ rfl rfl (Nat.add_comm _ _)
  have e3 : val_main_v3 (F := Ideal) x1 i = framed (planeOf x1 (i 0)) ((i 2).val + 2) ((i 3).val + 1) := by
    rw [val_main_v3_apply]; exact padded_apply x1 (idx_main_v3 i) (i 0) _ _ rfl (Nat.add_comm _ _) (Nat.add_comm _ _)
  have e4 : val_main_v4 (F := Ideal) x1 i = framed (planeOf x1 (i 0)) ((i 2).val + 1) (i 3).val := by
    rw [val_main_v4_apply]; exact padded_apply x1 (idx_main_v4 i) (i 0) _ _ rfl (Nat.add_comm _ _) rfl
  have e5 : val_main_v5 (F := Ideal) x1 i = framed (planeOf x1 (i 0)) ((i 2).val + 1) ((i 3).val + 2) := by
    rw [val_main_v5_apply]; exact padded_apply x1 (idx_main_v5 i) (i 0) _ _ rfl (Nat.add_comm _ _) (Nat.add_comm _ _)
  have hi : i = ix4 (i 0) (0 : Fin 1) (i 2) (i 3) := by
    funext a
    match a with
    | ⟨0, _⟩ => rfl
    | ⟨1, _⟩ => exact Subsingleton.elim (α := Fin 1) _ _
    | ⟨2, _⟩ => rfl
    | ⟨3, _⟩ => rfl
  have ex0 : x0 i = planeOf x0 (i 0) (i 2) (i 3) := congrArg x0 hi
  have ex1 : x1 i = planeOf x1 (i 0) (i 2) (i 3) := congrArg x1 hi
  rw [val_main_v24_apply, val_main_v19_apply, val_main_v14_apply, val_main_v12_apply, val_main_v13_apply,
    val_main_v18_apply, val_main_v17_apply, val_main_v16_apply, val_main_v15_apply, val_main_v23_apply,
    val_main_v22_apply, val_main_v21_apply, val_main_v20_apply, val_main_v10_apply, val_main_v9_apply,
    val_main_v8_apply, val_main_v7_apply, val_main_v6_apply, val_main_v11_apply, val_main_cst_apply,
    val_main_cst_0_apply, val_main_cst_1_apply, e1, e2, e3, e4, e5, ex0, ex1]
  simp only [Ideal.ofBits_def, Ideal.addf_def, Ideal.subf_def, Ideal.mulf_def, Ideal.maximumf_def, Ideal.minimumf_def,
    Ideal.hostNegf_def, Ideal.hostAbsf_def, Ideal.negf_def, Ideal.hostUnary_exp_def, Ideal.hostUnary_log1p_def,
    Ideal.ofBits_zero_f32]
  rfl

/-- The reference's result, as the run's term states it, is the mean loss of its two arguments. -/
theorem result_eq (x0 x1 : Batch.Idx → EReal) : val_main_v26 (F := Ideal) x0 x1 = fun _ => meanLoss x0 x1 := by
  funext i
  rw [val_main_v26_apply, val_main_v25_apply, val_main_cst_2_apply, val_main_cst_3_apply]
  simp only [stage_apply, Ideal.ofBits_def, Ideal.hostDivf_def, Ideal.ofBits_zero_f32, zero_add]
  rw [← batchLoss_eq_sum]
  rfl

end Cert.BoundaryLoss.OfReference

end
-- ==== Proof.Pieces.lean ====
/-
  What one grid point leaves in the accumulator's buffer, as a value.

  At the first point the body stores the zero block, reads it back and stores the zero block plus the plane's loss; at
  every later point it stores what the buffer held plus the plane's loss. Either way the buffer ends at the body's one
  accumulating expression of the two input blocks and of the accumulator's value before the sum.
-/
import proofs.«126187_j61203283968394_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.BoundaryLoss.OfKernel

open Cert.KernelIdeal Cert.KernelIdeal.Gen

variable {F : FTy → Type} [FloatOps F]

theorem origin2 : (![0, 0] : Fin 2 → Nat) = fun _ => 0 := funext fun a => by fin_cases a <;> rfl
theorem origin4 : (![0, 0, 0, 0] : Fin 4 → Nat) = fun _ => 0 := funext fun a => by fin_cases a <;> rfl

/-- A later point: the accumulator's contents `acc` plus the plane's loss. -/
theorem laterPoint (c : Dev nD) (i : grid0.Coords) (a1 : Memref sig .tc .vmem S1x1x512x512 .f32) (h1 : a1.IsWhole)
    (a2 : Memref sig .tc .vmem S1x1x512x512 .f32) (h2 : a2.IsWhole) (a3 : Memref sig .tc .vmem S1x1 .f32) (h3 : a3.IsWhole)
    (hc : ¬cond0_0 i) (x0 x1 : Vec F S1x1x512x512 .f32) (acc : Vec F S1x1 .f32) :
    out0_B_2 c i a1 h1 a2 h2 a3 h3 hc x0 x1 acc = k0_pay1 (k0_pay3 x0) (k0_pay4 x1) (k0_pay5 x1) k0_pay6 acc := by
  unfold out0_B_2
  rw [View.read_writes_eq_canon _ _ _ (cover0_B_2 c i a1 h1 a2 h2 a3 h3 hc x0 x1 acc)]
  unfold kernelRun0_B
  dsimp only
  sl_unfold_words
  rw [View.canon_unit_zero origin2]
  simp only [View.readAt_eq_ld, h1.read_unread, h2.read_unread, h3.read_unread,
    View.ld_unit_zero (S := S1x1x512x512) origin4, View.ld_unit_zero (S := S1x1) origin2]

/-- The first point: the zero block plus the plane's loss. -/
theorem firstPoint (c : Dev nD) (i : grid0.Coords) (a1 : Memref sig .tc .vmem S1x1x512x512 .f32) (h1 : a1.IsWhole)
    (a2 : Memref sig .tc .vmem S1x1x512x512 .f32) (h2 : a2.IsWhole) (a3 : Memref sig .tc .vmem S1x1 .f32) (h3 : a3.IsWhole)
    (hc : cond0_0 i) (x0 x1 : Vec F S1x1x512x512 .f32) :
    out0_A_2 c i a1 h1 a2 h2 a3 h3 hc x0 x1 = k0_pay1 (k0_pay3 x0) (k0_pay4 x1) (k0_pay5 x1) k0_pay6 (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) origin2, View.readCov_unit_zero (S := S1x1) _ origin2]
  simp only [View.readAt_eq_ld, h1.read_unread, h2.read_unread,
    View.ld_unit_zero (S := S1x1x512x512) origin4]

end Cert.BoundaryLoss.OfKernel

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.LibUnitPair.lean ====
/-
  A matrix stored as a block with two leading unit axes. A [1, 1, a, b] array cast to [a, b] reads, at (i, j), the
  operand at (0, 0, i, j); an [a, b] matrix cast to [1, 1, a, b] reads, at (u, v, i, j), the matrix at (i, j), whatever
  the two unit coordinates. General in the extents.
-/
import Idealize.ShloMosaic.Lib.Pipeline.Value
import Idealize.ShloMosaic.Lib.ValueIdx

noncomputable section

namespace Cert.LibUnitPair

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` matrix cast to `[1, 1, a, b]` reads, at `(u, v, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp only [Nat.zero_mul, Nat.zero_add])

end Cert.LibUnitPair

end
-- ==== Proof.LibMaskedRoll.lean ====
/-
  A matrix shifted by one step the way a kernel does it: rotate its rows or its columns, then mask the line that the
  rotation brought around the end. The facts here are general in the extents: the row and the column counter of an
  `[a, b]` matrix read at an entry, a rotation of the rows or of the columns read at an entry as the matrix at the
  entry moved back by the amount around the end, and a select on the equality of two small numbers compared as 32-bit
  words.
-/
import Idealize.ShloMosaic.Lib.ValueIdx
import Idealize.ShloMosaic.Lib.KernelVsHost

noncomputable section

namespace Cert.LibMaskedRoll

open Idealize.ShloMosaic Idealize.ShloMosaic.ValueIdx

/-- Comparing two numbers below 2³² as 32-bit words and selecting on the answer selects on their equality. -/
theorem select_cmpi_eq {α : Type} (n k : ℕ) (hn : n < 2 ^ 32) (hk : k < 2 ^ 32) (x y : α) :
    Scalar.select (IntOp.cmpi .eq (BitVec.ofNat 32 n) (BitVec.ofNat 32 k)) x y = if n = k then x else y := by
  show (if BitVec.ofBool (BitVec.ofNat 32 n == BitVec.ofNat 32 k) = 1#1 then x else y) = _
  by_cases h : n = k
  · subst h
    rw [beq_self_eq_true, if_pos rfl]
    exact if_pos rfl
  · have hne : BitVec.ofNat 32 n ≠ BitVec.ofNat 32 k := fun e => h (by
      have := congrArg BitVec.toNat e
      rwa [BitVec.toNat_ofNat, BitVec.toNat_ofNat, Nat.mod_eq_of_lt hn, Nat.mod_eq_of_lt hk] at this)
    rw [beq_false_of_ne hne, if_neg h]
    exact if_neg (by decide)

/-- The row counter of an `[a, b]` matrix at `(r, c)` is `r`, -/
theorem rowIota_apply {a b : ℕ} (h : (⟨2, ![a, b]⟩ : Shape).Iotas .tc 32 [0]) (r : Fin a) (c : Fin b) :
    iota .tc ⟨2, ![a, b]⟩ 32 [0] h (ix2 r c) = BitVec.ofNat 32 r.val := by
  show BitVec.ofNat 32 (0 * a + r.val) = _
  rw [Nat.zero_mul, Nat.zero_add]

/-- and its column counter is `c`. -/
theorem colIota_apply {a b : ℕ} (h : (⟨2, ![a, b]⟩ : Shape).Iotas .tc 32 [1]) (r : Fin a) (c : Fin b) :
    iota .tc ⟨2, ![a, b]⟩ 32 [1] h (ix2 r c) = BitVec.ofNat 32 c.val := by
  show BitVec.ofNat 32 (0 * b + c.val) = _
  rw [Nat.zero_mul, Nat.zero_add]

/-- An `[a, b]` matrix rotated along its rows by an amount that is `s` modulo `a`, read at `(r, c)`, is the matrix at row
    `(r + a - s) mod a` of the same column. -/
theorem rotRows_apply {α : Type} {a b : ℕ} (y : (⟨2, ![a, b]⟩ : Shape).Idx → α) (h : (⟨2, ![a, b]⟩ : Shape).Rotates 0 none)
    (sb : BitVec 32) (s : ℕ) (hs : sb.toNat % a = s) (r : Fin a) (c : Fin b) (r' : Fin a)
    (hr' : r'.val = (r.val + a - s) % a) : dynamicRotate 0 sb none y h (ix2 r c) = y (ix2 r' c) := by
  refine dynamicRotate_apply (0 : Fin 2) sb y h (ix2 r c) (ix2 r' c) fun d => ?_
  match d with
  | ⟨0, _⟩ => show r'.val = (r.val + a - sb.toNat % a) % a; rw [hs, hr']
  | ⟨1, _⟩ => rfl

/-- An `[a, b]` matrix rotated along its columns by an amount that is `s` modulo `b`, read at `(r, c)`, is the matrix at
    column `(c + b - s) mod b` of the same row. -/
theorem rotCols_apply {α : Type} {a b : ℕ} (y : (⟨2, ![a, b]⟩ : Shape).Idx → α) (h : (⟨2, ![a, b]⟩ : Shape).Rotates 1 none)
    (sb : BitVec 32) (s : ℕ) (hs : sb.toNat % b = s) (r : Fin a) (c : Fin b) (c' : Fin b)
    (hc' : c'.val = (c.val + b - s) % b) : dynamicRotate 1 sb none y h (ix2 r c) = y (ix2 r c') := by
  refine dynamicRotate_apply (1 : Fin 2) sb y h (ix2 r c) (ix2 r c') fun d => ?_
  match d with
  | ⟨0, _⟩ => rfl
  | ⟨1, _⟩ => show c'.val = (c.val + b - sb.toNat % b) % b; rw [hs, hc']

end Cert.LibMaskedRoll

end
-- ==== Proof.Body.lean ====
/-
  The kernel's body on one plane, read at an index on the extended reals.

  The body sees one 512 by 512 plane of logits and one of labels (each a block with two leading unit axes). It
  builds the label's four neighbours by rotating the plane one step along an axis, forwards or (by 511) backwards, and
  replacing by `0` the row or column that the rotation brought around the end; a rotated-and-masked plane at `(r, c)` is
  the frame around the label plane at the neighbour's padded coordinates. From these it forms the boundary indicator
  `t - min t (four neighbours)`, the weighted loss of each pixel, sums along the rows and then over the rows, and adds
  the plane's loss to the accumulator.
-/
import proofs.«126187_j61203283968394_1_alg».proof.Proof.Gen.KernelIdeal.Skeleton
import proofs.«126187_j61203283968394_1_alg».proof.Proof.Loss
import proofs.«126187_j61203283968394_1_alg».proof.Proof.LibKeepdims
import proofs.«126187_j61203283968394_1_alg».proof.Proof.LibKeepdimsCols
import proofs.«126187_j61203283968394_1_alg».proof.Proof.LibUnitPair
import proofs.«126187_j61203283968394_1_alg».proof.Proof.LibMaskedRoll
import Idealize.ShloMosaic.Lib.KernelVsHost

noncomputable section

open scoped BigOperators

namespace Cert.BoundaryLoss.OfKernel

open Idealize.ShloMosaic Idealize.ShloMosaic.ValueIdx Cert.KernelIdeal Cert.KernelIdeal.Gen Cert.BoundaryLoss
open Cert.LibMaskedRoll (select_cmpi_eq rowIota_apply colIota_apply rotRows_apply rotCols_apply)

/-- A block of one plane, by row and column. -/
def blockPlane (v : Vec Ideal S1x1x512x512 .f32) : Fin 512 → Fin 512 → EReal :=
  fun r c => v (ix4 (0 : Fin 1) (0 : Fin 1) r c)

/-! ## The frame at a neighbour's padded coordinates -/

/-- Inside the border, at any spelling of the coordinates. -/
theorem framed_of (T : Fin 512 → Fin 512 → EReal) (p q : ℕ) (r c : Fin 512) (hp : p = r.val + 1) (hq : q = c.val + 1) :
    framed T p q = T r c := by
  subst hp hq; exact framed_inside T r c

/-- On the border. -/
theorem framed_border (T : Fin 512 → Fin 512 → EReal) (p q : ℕ) (h : p = 0 ∨ p = 513 ∨ q = 0 ∨ q = 513) :
    framed T p q = 0 := by
  unfold framed
  exact dif_neg (by omega)

/-! ## The four neighbours -/

section Neighbours

variable (y : FVec Ideal S512x512 .f32) (T : Fin 512 → Fin 512 → EReal) (hy : ∀ r c, y (ix2 r c) = T r c)
variable (hi0 : S512x512.Iotas .tc 32 [0]) (hi1 : S512x512.Iotas .tc 32 [1])
variable (hr0 : S512x512.Rotates 0 none) (hr1 : S512x512.Rotates 1 none)
include hy

/-- The neighbour above: rotate the rows forward by one and clear row 0. -/
theorem above_apply (r c : Fin 512) :
    select (cmpi .eq (iota .tc S512x512 32 [0] hi0) (broadcast S512x512 0#32))
      (broadcast S512x512 (Scalar.ofBits (F := Ideal) .f32 0x00000000#32)) (dynamicRotate 0 1#32 none y hr0) (ix2 r c)
      = framed T r.val (c.val + 1) := by
  have hr := r.isLt
  show Scalar.select (IntOp.cmpi .eq (iota .tc S512x512 32 [0] hi0 (ix2 r c)) (BitVec.ofNat 32 0))
    (Ideal.ofBits .f32 0x00000000#32) (dynamicRotate 0 1#32 none y hr0 (ix2 r c)) = _
  rw [rowIota_apply, select_cmpi_eq _ _ (by omega) (by omega), Ideal.ofBits_zero_f32]
  by_cases h : r.val = 0
  · rw [if_pos h, framed_border T _ _ (Or.inl h)]
  · rw [if_neg h, (rotRows_apply y hr0 1#32 1 rfl r c ⟨r.val - 1, by omega⟩ (by show r.val - 1 = _; omega)).trans (hy _ _)]
    exact (framed_of T _ _ _ _ (by show r.val = r.val - 1 + 1; omega) rfl).symm

/-- The neighbour below: rotate the rows backward by one (forward by 511) and clear row 511. -/
theorem below_apply (r c : Fin 512) :
    select (cmpi .eq (iota .tc S512x512 32 [0] hi0) (broadcast S512x512 511#32))
      (broadcast S512x512 (Scalar.ofBits (F := Ideal) .f32 0x00000000#32)) (dynamicRotate 0 511#32 none y hr0) (ix2 r c)
      = framed T (r.val + 2) (c.val + 1) := by
  have hr := r.isLt
  show Scalar.select (IntOp.cmpi .eq (iota .tc S512x512 32 [0] hi0 (ix2 r c)) (BitVec.ofNat 32 511))
    (Ideal.ofBits .f32 0x00000000#32) (dynamicRotate 0 511#32 none y hr0 (ix2 r c)) = _
  rw [rowIota_apply, select_cmpi_eq _ _ (by omega) (by omega), Ideal.ofBits_zero_f32]
  by_cases h : r.val = 511
  · rw [if_pos h, framed_border T _ _ (Or.inr (Or.inl (by omega)))]
  · rw [if_neg h, (rotRows_apply y hr0 511#32 511 rfl r c ⟨r.val + 1, by omega⟩ (by show r.val + 1 = _; omega)).trans (hy _ _)]
    exact (framed_of T _ _ _ _ rfl rfl).symm

/-- The neighbour to the left: rotate the columns forward by one and clear column 0. -/
theorem left_apply (r c : Fin 512) :
    select (cmpi .eq (iota .tc S512x512 32 [1] hi1) (broadcast S512x512 0#32))
      (broadcast S512x512 (Scalar.ofBits (F := Ideal) .f32 0x00000000#32)) (dynamicRotate 1 1#32 none y hr1) (ix2 r c)
      = framed T (r.val + 1) c.val := by
  have hc := c.isLt
  show Scalar.select (IntOp.cmpi .eq (iota .tc S512x512 32 [1] hi1 (ix2 r c)) (BitVec.ofNat 32 0))
    (Ideal.ofBits .f32 0x00000000#32) (dynamicRotate 1 1#32 none y hr1 (ix2 r c)) = _
  rw [colIota_apply, select_cmpi_eq _ _ (by omega) (by omega), Ideal.ofBits_zero_f32]
  by_cases h : c.val = 0
  · rw [if_pos h, framed_border T _ _ (Or.inr (Or.inr (Or.inl h)))]
  · rw [if_neg h, (rotCols_apply y hr1 1#32 1 rfl r c ⟨c.val - 1, by omega⟩ (by show c.val - 1 = _; omega)).trans (hy _ _)]
    exact (framed_of T _ _ _ _ rfl (by show c.val = c.val - 1 + 1; omega)).symm

/-- The neighbour to the right: rotate the columns backward by one (forward by 511) and clear column 511. -/
theorem right_apply (r c : Fin 512) :
    select (cmpi .eq (iota .tc S512x512 32 [1] hi1) (broadcast S512x512 511#32))
      (broadcast S512x512 (Scalar.ofBits (F := Ideal) .f32 0x00000000#32)) (dynamicRotate 1 511#32 none y hr1) (ix2 r c)
      = framed T (r.val + 1) (c.val + 2) := by
  have hc := c.isLt
  show Scalar.select (IntOp.cmpi .eq (iota .tc S512x512 32 [1] hi1 (ix2 r c)) (BitVec.ofNat 32 511))
    (Ideal.ofBits .f32 0x00000000#32) (dynamicRotate 1 511#32 none y hr1 (ix2 r c)) = _
  rw [colIota_apply, select_cmpi_eq _ _ (by omega) (by omega), Ideal.ofBits_zero_f32]
  by_cases h : c.val = 511
  · rw [if_pos h, framed_border T _ _ (Or.inr (Or.inr (Or.inr (by omega))))]
  · rw [if_neg h, (rotCols_apply y hr1 511#32 511 rfl r c ⟨c.val + 1, by omega⟩ (by show c.val + 1 = _; omega)).trans (hy _ _)]
    exact (framed_of T _ _ _ _ rfl rfl).symm

end Neighbours

/-! ## The payloads -/

/-- The logit block, cast to a plane, at `(r, c)`. -/
theorem logits_apply (v3 : Vec Ideal S1x1x512x512 .f32) (r c : Fin 512) : k0_pay3 v3 (ix2 r c) = blockPlane v3 r c :=
  Cert.LibUnitPair.shapeCast_11ab_ab_apply v3 _ r c

/-- The label block, cast to a plane, at `(r, c)`. -/
theorem labels_apply (v5 : Vec Ideal S1x1x512x512 .f32) (r c : Fin 512) : k0_pay4 v5 (ix2 r c) = blockPlane v5 r c :=
  Cert.LibUnitPair.shapeCast_11ab_ab_apply v5 _ r c

/-- The boundary indicator of a label plane at `(r, c)`: the label less the minimum of itself and its four neighbours. -/
def boundary (T : Fin 512 → Fin 512 → EReal) (r c : Fin 512) : EReal :=
  T r c - min (T r c) (min (min (framed T r.val (c.val + 1)) (framed T (r.val + 2) (c.val + 1)))
    (min (framed T (r.val + 1) c.val) (framed T (r.val + 1) (c.val + 2))))

/-- The body's boundary payload at `(r, c)`. -/
theorem boundary_apply (v5 : Vec Ideal S1x1x512x512 .f32) (r c : Fin 512) :
    k0_pay5 v5 (ix2 r c) = boundary (blockPlane v5) r c := by
  unfold k0_pay5 boundary
  exact congrArg₂ (· - ·) (labels_apply v5 r c) (congrArg₂ min (labels_apply v5 r c) (congrArg₂ min
    (congrArg₂ min (above_apply (k0_pay4 v5) (blockPlane v5) (labels_apply v5) _ _ r c)
      (below_apply (k0_pay4 v5) (blockPlane v5) (labels_apply v5) _ _ r c))
    (congrArg₂ min (left_apply (k0_pay4 v5) (blockPlane v5) (labels_apply v5) _ _ r c)
      (right_apply (k0_pay4 v5) (blockPlane v5) (labels_apply v5) _ _ r c))))

/-- The zero plane the body compares the logits with. -/
theorem zeros_apply (j : S512x512.Idx) : k0_pay6 (F := Ideal) j = 0 := Ideal.ofBits_zero_f32

/-- The accumulator's new value: what it held plus the plane's pixels — each the body's pointwise expression of the
    logit `v4`, the label `v6`, the boundary indicator `v33` and the zero plane `v34` — summed along the rows and then
    over the rows. -/
theorem accumulated_apply (v4 v6 v33 v34 : FVec Ideal S512x512 .f32) (v53 : Vec Ideal S1x1 .f32) (i : S1x1.Idx) :
    k0_pay1 v4 v6 v33 v34 v53 i = v53 i + ∑ r : Fin 512, ∑ c : Fin 512,
      (max (v4 (ix2 r c)) (v34 (ix2 r c)) - v4 (ix2 r c) * v6 (ix2 r c)
          + Ideal.log1p (Ideal.exp (Ideal.ofBits .f32 0x00000000#32 - max (v4 (ix2 r c)) (-(v4 (ix2 r c))))))
        * (Ideal.ofBits .f32 0x3F800000#32 + Ideal.ofBits .f32 0x40A00000#32 * v33 (ix2 r c)) := by
  obtain ⟨u, v, rfl⟩ : ∃ (u v : Fin 1), i = ix2 u v := ⟨i 0, i 1, eq_ix2 i⟩
  unfold k0_pay1
  refine congrArg₂ (· + ·) (congrFun (shapeCast_self v53 _) (ix2 u v)) ?_
  refine (Cert.LibKeepdims.shapeCast_a_a1_apply (a := 1) _ _ u v).trans ?_
  refine (Cert.LibKeepdimsCols.multiReduction_add_cols (a := 512) (b := 1) _ _ _ _ _ u).trans ?_
  refine Finset.sum_congr rfl fun r _ => ?_
  refine (Cert.LibKeepdims.shapeCast_a_a1_apply (a := 512) _ _ r u).trans ?_
  refine (Cert.LibKeepdims.multiReduction_add_rows (a := 512) (b := 512) _ _ _ _ _ r).trans ?_
  rfl

end Cert.BoundaryLoss.OfKernel

end
-- ==== Proof.Accum.lean ====
/-
  The kernel's run as a value, on the extended reals.

  Point `n` of the grid sees plane `n` of the logits and of the labels. The accumulator's buffer holds `0` plus plane
  0's loss after the first point, and after point `n + 1` what it held after point `n` plus plane `n + 1`'s loss: by
  induction it holds the running sum of the planes' losses, and after the last point the batch's loss. The buffer is
  written back to its one-entry array after the last point only, and its one block is that whole array. The program
  then reshapes the entry to a scalar and divides it by the pixel count.
-/
import proofs.«126187_j61203283968394_1_alg».proof.Proof.Pieces
import proofs.«126187_j61203283968394_1_alg».proof.Proof.Body
import Idealize.ShloMosaic.Lib.Pipeline.Value
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.BoundaryLoss.OfKernel

open Cert.KernelIdeal Cert.KernelIdeal.Gen Cert.BoundaryLoss

variable (m : (ℓ : Loc nD τ sig) → Buf (Elt Ideal) ℓ) (ρ : Dev nD → PrngReg)

/-! ## One step -/

/-- The body's accumulating expression at its one entry: the accumulator plus the plane's loss. -/
theorem step_apply (x0 x1 : Vec Ideal S1x1x512x512 .f32) (acc : Vec Ideal S1x1 .f32) (i : S1x1.Idx) :
    k0_pay1 (k0_pay3 x0) (k0_pay4 x1) (k0_pay5 x1) (k0_pay6 (F := Ideal)) acc i
      = acc i + planeLoss (blockPlane x0) (blockPlane x1) := by
  rw [accumulated_apply]
  refine congrArg (acc i + ·) (Finset.sum_congr rfl fun r _ => Finset.sum_congr rfl fun c _ => ?_)
  rw [logits_apply, labels_apply, boundary_apply, zeros_apply, Ideal.ofBits_zero_f32, zero_sub]
  rfl

/-! ## The running sum over the grid -/

/-- The loss of the plane that grid point `n` sees (`0` past the grid). -/
def pointLoss (c : Dev nD) (n : ℕ) : EReal :=
  if h : n < cfg0.N then
    planeLoss (blockPlane (iblk m c 0 ⟨n, h⟩ : Vec Ideal S1x1x512x512 .f32)) (blockPlane (iblk m c 1 ⟨n, h⟩ : Vec Ideal S1x1x512x512 .f32))
  else 0

theorem pointLoss_of_lt (c : Dev nD) (n : ℕ) (h : n < cfg0.N) :
    pointLoss m c n
      = planeLoss (blockPlane (iblk m c 0 ⟨n, h⟩ : Vec Ideal S1x1x512x512 .f32)) (blockPlane (iblk m c 1 ⟨n, h⟩ : Vec Ideal S1x1x512x512 .f32)) := by
  unfold pointLoss
  exact dif_pos h

/-- After point `n` the accumulator's one entry holds the running sum of the planes' losses up to `n`. -/
theorem outsAt_apply (c : Dev nD) : ∀ (n : ℕ) (h : n < cfg0.N) (i : S1x1.Idx),
    outsAt0 m c n h i = running (pointLoss m c) n
  | 0, h, i => by
    refine (congrFun ((outsAt0_A m c ⟨0, h⟩ rfl).trans (firstPoint c _ _ _ _ _ _ _ _ _ _)) i).trans ?_
    refine (step_apply _ _ _ i).trans ?_
    show Ideal.ofBits .f32 0x00000000#32 + _ = 0 + pointLoss m c 0
    rw [Ideal.ofBits_zero_f32]
    exact congrArg (0 + ·) (pointLoss_of_lt m c 0 h).symm
  | n + 1, h, i => by
    have hN : cfg0.N = 32 := N_0
    have hB : ¬(⟨n + 1, h⟩ : Fin cfg0.N).val % 32 = 0 := by dsimp only; omega
    refine (congrFun ((outsAt0_B m c ⟨n + 1, h⟩ hB).trans (laterPoint c _ _ _ _ _ _ _ _ _ _ _)) i).trans ?_
    refine (step_apply _ _ _ i).trans ?_
    show outsAt0 m c n _ i + _ = running (pointLoss m c) n + pointLoss m c (n + 1)
    exact congrArg₂ (· + ·) (outsAt_apply c n _ i) (pointLoss_of_lt m c (n + 1) h).symm

/-! ## The planes, read off the argument arrays -/

/-- Where each input window's block sits at point `t`: plane `t`, from the origin of the plane. -/
theorem logitsWindow : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem labelsWindow : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- The logit block at point `t` is plane `t` of the first argument. -/
theorem logitsBlock (c : Dev nD) (t : Fin cfg0.N) (b : Fin 32) (hb : t.val = b.val) :
    blockPlane (iblk m c 0 t : Vec Ideal S1x1x512x512 .f32) = planeOf (m ((c : Thread nD τ).loc main_arg0)) b := by
  obtain ⟨h0, h1, h2, h3⟩ := logitsWindow t
  funext r cc
  unfold blockPlane planeOf iblk
  rw [View.read_apply]
  show V m c main_arg0 _ = m ((c : Thread nD τ).loc main_arg0) _
  refine congrArg (m ((c : Thread nD τ).loc main_arg0)) (funext fun a => Fin.ext ?_)
  match a with
  | ⟨0, _⟩ => show win0_0.index t 0 * 1 + 1 * 0 = b.val; rw [h0]; omega
  | ⟨1, _⟩ => show win0_0.index t 1 * 1 + 1 * 0 = 0; rw [h1]
  | ⟨2, _⟩ => show win0_0.index t 2 * 512 + 1 * r.val = r.val; rw [h2]; omega
  | ⟨3, _⟩ => show win0_0.index t 3 * 512 + 1 * cc.val = cc.val; rw [h3]; omega

/-- The label block at point `t` is plane `t` of the second argument. -/
theorem labelsBlock (c : Dev nD) (t : Fin cfg0.N) (b : Fin 32) (hb : t.val = b.val) :
    blockPlane (iblk m c 1 t : Vec Ideal S1x1x512x512 .f32) = planeOf (m ((c : Thread nD τ).loc main_arg1)) b := by
  obtain ⟨h0, h1, h2, h3⟩ := labelsWindow t
  funext r cc
  unfold blockPlane planeOf iblk
  rw [View.read_apply]
  show V m c main_arg1 _ = m ((c : Thread nD τ).loc main_arg1) _
  refine congrArg (m ((c : Thread nD τ).loc main_arg1)) (funext fun a => Fin.ext ?_)
  match a with
  | ⟨0, _⟩ => show win0_1.index t 0 * 1 + 1 * 0 = b.val; rw [h0]; omega
  | ⟨1, _⟩ => show win0_1.index t 1 * 1 + 1 * 0 = 0; rw [h1]
  | ⟨2, _⟩ => show win0_1.index t 2 * 512 + 1 * r.val = r.val; rw [h2]; omega
  | ⟨3, _⟩ => show win0_1.index t 3 * 512 + 1 * cc.val = cc.val; rw [h3]; omega

/-- So the loss at point `b` is the loss of plane `b` of the two arguments. -/
theorem pointLoss_eq (c : Dev nD) (b : Fin 32) :
    pointLoss m c b.val
      = planeLoss (planeOf (m ((c : Thread nD τ).loc main_arg0)) b) (planeOf (m ((c : Thread nD τ).loc main_arg1)) b) := by
  have hb : b.val < cfg0.N := by rw [show cfg0.N = 32 from N_0]; exact b.isLt
  rw [pointLoss_of_lt m c b.val hb, logitsBlock m c ⟨b.val, hb⟩ b rfl, labelsBlock m c ⟨b.val, hb⟩ b rfl]

/-- The last point of the grid. -/
theorem lastLt : 31 < cfg0.N := by rw [show cfg0.N = 32 from N_0]; decide

/-- After the last point the accumulator's entry holds the batch's loss. -/
theorem total_apply (c : Dev nD) (i : S1x1.Idx) :
    outsAt0 m c 31 lastLt i = batchLoss (m ((c : Thread nD τ).loc main_arg0)) (m ((c : Thread nD τ).loc main_arg1)) := by
  rw [outsAt_apply m c 31 lastLt i, running_eq_sum, Finset.sum_range]
  exact Finset.sum_congr rfl fun b _ => pointLoss_eq m c b

/-! ## The write-back, and the lines after the region -/

/-- The one write-back, after the last point, writes the accumulator's buffer: its block is the whole one-entry array. -/
theorem flushed_eq (c : Dev nD) (t : Fin cfg0.N) (hf : (cfg0.win 2).flush t = true) :
    (dats m 0 c).flushed 2 t = ((cfg0.win 2).blk t).view.read (Elt Ideal) (outsAt0 m c 31 lastLt) := by
  have hN : cfg0.N = 32 := N_0
  have h31 : t.val = 31 := by have := (flush0_2 t).mp hf; have := t.isLt; omega
  obtain rfl : t = ⟨31, lastLt⟩ := Fin.ext h31
  show (cfg0.win 2).cut (grid0.coords ⟨31, lastLt⟩) ((dats m 0 c).after 2 ⟨31, lastLt⟩) = _
  rw [after0_2]
  have hz : (fun a => win0_2.index ⟨31, lastLt⟩ a * main_v0.ty.shape.size a) = fun _ => 0 :=
    funext fun a => by fin_cases a <;> decide +kernel
  exact (Memref.read_access_unit_zero (Elt Ideal) main_v0 hz (fun a => by rw [congrFun hz a]; simp) (outsAt0 m c 31 lastLt)).symm

/-- So the one-entry array ends holding what the accumulator held after the last point. -/
theorem final_eq (c : Dev nD) : (dats m 0 c).arrAt 2 cfg0.N = outsAt0 m c 31 lastLt :=
  (dats m 0 c).arrAt_eq_of_cover 2 (outsAt0 m c 31 lastLt) (flushed_eq m c) fun i =>
    ⟨⟨31, lastLt⟩, (flush0_2 _).mpr rfl, by
      show i ∈ ((View.whole main_v0).slice (win0_2.rect ⟨31, lastLt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨31, lastLt⟩ 0 * win0_2.size 0 ≤ (i 0 : Nat)
          ∧ (i 0 : Nat) < win0_2.index ⟨31, lastLt⟩ 0 * win0_2.size 0 + win0_2.xsize (grid0.coords ⟨31, lastLt⟩) 0
        rw [show win0_2.index ⟨31, lastLt⟩ 0 * win0_2.size 0 = 0 from by decide +kernel,
          show win0_2.xsize (grid0.coords ⟨31, lastLt⟩) 0 = 1 from by decide +kernel]
        omega
      | ⟨1, _⟩ =>
        show win0_2.index ⟨31, lastLt⟩ 1 * win0_2.size 1 ≤ (i 1 : Nat)
          ∧ (i 1 : Nat) < win0_2.index ⟨31, lastLt⟩ 1 * win0_2.size 1 + win0_2.xsize (grid0.coords ⟨31, lastLt⟩) 1
        rw [show win0_2.index ⟨31, lastLt⟩ 1 * win0_2.size 1 = 0 from by decide +kernel,
          show win0_2.xsize (grid0.coords ⟨31, lastLt⟩) 1 = 1 from by decide +kernel]
        omega⟩

/-- The lines after the region leave the mean loss in the result. -/
theorem tail_eq (c : Dev nD) :
    Pipeline.afterTail₀ cfgs (dats m) 0 (V0 m) [hostOps1] c main_v2
      = fun _ => meanLoss (m ((c : Thread nD τ).loc main_arg0)) (m ((c : Thread nD τ).loc main_arg1)) := by
  unfold Pipeline.afterTail₀
  show StableHlo.after hostOps1 _ (Proc.devRef .tc main_v2) = _
  after_results
  rw [Pipeline.withArrays_arr spec0 launch0.win.arr_inj c _ _ 2, final_eq]
  funext i
  show Ideal.div (outsAt0 m c 31 lastLt _) (Ideal.ofBits .f32 0x4B000000#32) = _
  rw [total_apply]
  rfl

/-- The result buffer is none of the pipeline's arrays. -/
theorem result_rest : main_v2 ∈ Pipeline.restRefs sig (cfgs 0).spec :=
  Pipeline.mem_restRefs_of main_v2 rfl fun w => by fin_cases w <;> decide

/-- The run, read: the result at the mean loss of the two arguments, the arguments unchanged. -/
theorem run : θ_run defs (onTc (τ := τ) (main (F := Ideal))) ⟨m, fun _ => 0, ρ⟩ fun r => ∀ c : Dev nD,
      r.2.mem ((c : Thread nD τ).loc main_v2)
        = (fun _ => meanLoss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.BoundaryLoss.OfKernel

end
-- ==== Proof.lean ====
/-
  The boundary-weighted binary cross-entropy over a batch of 32 planes of 512 by 512 pixels: a kernel that visits one
  plane per grid point and accumulates the planes' losses in a one-entry buffer, against a reference that forms the
  weighted loss of every pixel of the batch at once and takes its mean.

  Both compute, pixel by pixel, the same weighted loss: the kernel finds a label's four neighbours by rotating its
  plane and clearing the row or column brought around the end, the reference by padding the labels with a border of
  zeros and taking shifted windows; either way a neighbour outside the plane counts as `0`. The kernel then sums a
  plane along its rows and over its rows and adds the planes in grid order from `0`; the reference sums over every
  index of the batch from `0`. On the extended reals addition is commutative and associative, so the two sums are one
  (a batch's indices are its planes, rows and columns), and both divide it by the same pixel count. No step needs
  the inputs finite.

  The kernel's idealization rewrote no operation, so the word-level kernel owes only its frame.
-/
import proofs.«126187_j61203283968394_1_alg».proof.Defs
import proofs.«126187_j61203283968394_1_alg».proof.Proof.Gen.Kernel
import proofs.«126187_j61203283968394_1_alg».proof.Proof.Gen.Kernel.Skeleton
import proofs.«126187_j61203283968394_1_alg».proof.Proof.Gen.Kernel.Launch
import proofs.«126187_j61203283968394_1_alg».proof.Proof.Gen.Kernel.Points
import proofs.«126187_j61203283968394_1_alg».proof.Proof.Gen.Kernel.Frame
import proofs.«126187_j61203283968394_1_alg».proof.Proof.Gen.KernelIdeal
import proofs.«126187_j61203283968394_1_alg».proof.Proof.Gen.KernelIdeal.Skeleton
import proofs.«126187_j61203283968394_1_alg».proof.Proof.Gen.KernelIdeal.Launch
import proofs.«126187_j61203283968394_1_alg».proof.Proof.Gen.KernelIdeal.Points
import proofs.«126187_j61203283968394_1_alg».proof.Proof.Gen.KernelIdeal.Frame
import proofs.«126187_j61203283968394_1_alg».proof.Proof.Gen.ReferenceIdeal
import proofs.«126187_j61203283968394_1_alg».proof.Proof.Gen.ReferenceIdeal.Run
import proofs.«126187_j61203283968394_1_alg».proof.Proof.Gen.ReferenceIdeal.Read
import proofs.«126187_j61203283968394_1_alg».proof.Proof.Gen.Pre_finite_inputs
import proofs.«126187_j61203283968394_1_alg».proof.Proof.Reference
import proofs.«126187_j61203283968394_1_alg».proof.Proof.Accum
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end at the mean loss of their arguments, and the arguments agree. -/
theorem algebraic : Cert.algebraic_KernelIdeal_ReferenceIdeal := by
  intro m ρ m' ρ' _ hagree
  refine ⟨fun c => fun _ => Cert.BoundaryLoss.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.BoundaryLoss.OfKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.BoundaryLoss.OfReference.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
